-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x133x6 : Shape := ⟨3, ![16384, 133, 6]⟩
abbrev S16384x133x3 : Shape := ⟨3, ![16384, 133, 3]⟩
abbrev S16384x133x1 : Shape := ⟨3, ![16384, 133, 1]⟩
abbrev S_ : Shape := ⟨0, ![]⟩

class Facts : Prop where
  bcast_S_S16384x133x6 : S_.BroadcastsInDim S16384x133x6 (![] : Fin 0 → Fin S16384x133x6.rank)
  reducesTo_S16384x133x6_S_d0_1_2 : S16384x133x6.ReducesTo [0, 1, 2] S_
  h_S_ : 0 < S_.numel
  bcast_S_S16384x133x3 : S_.BroadcastsInDim S16384x133x3 (![] : Fin 0 → Fin S16384x133x3.rank)
  reducesTo_S16384x133x3_S_d0_1_2 : S16384x133x3.ReducesTo [0, 1, 2] S_
  bcast_S_S16384x133x1 : S_.BroadcastsInDim S16384x133x1 (![] : Fin 0 → Fin S16384x133x1.rank)
  reducesTo_S16384x133x1_S_d0_1_2 : S16384x133x1.ReducesTo [0, 1, 2] S_

variable [Facts]

def fn {F : FTy → Type} [FloatOps F] (main_arg0 : FVec F S16384x133x6 .f32) (main_arg1 : FVec F S16384x133x3 .f32) (main_arg2 : FVec F S16384x133x1 .f32) : IVec S_ 1 :=
  let main_v0 : FVec F S16384x133x6 .f32 := Host.absf main_arg0
  let main_cst : FVec F S_ .f32 := constant S_ .f32 0x7F800000#32
  let main_v1 : FVec F S16384x133x6 .f32 := broadcastInDim S16384x133x6 ![] bcast_S_S16384x133x6 main_cst
  let main_v2 : IVec S16384x133x6 1 := cmpf .olt main_v0 main_v1
  let main_c : IVec S_ 1 := constantI S_ 1 1#1
  let main_v3 : IVec S_ 1 := (fun x v => Host.reduce IntOp.andi x v reducesTo_S16384x133x6_S_d0_1_2 h_S_) main_v2 main_c
  let main_v4 : FVec F S16384x133x3 .f32 := Host.absf main_arg1
  let main_cst_0 : FVec F S_ .f32 := constant S_ .f32 0x7F800000#32
  let main_v5 : FVec F S16384x133x3 .f32 := broadcastInDim S16384x133x3 ![] bcast_S_S16384x133x3 main_cst_0
  let main_v6 : IVec S16384x133x3 1 := cmpf .olt main_v4 main_v5
  let main_c_1 : IVec S_ 1 := constantI S_ 1 1#1
  let main_v7 : IVec S_ 1 := (fun x v => Host.reduce IntOp.andi x v reducesTo_S16384x133x3_S_d0_1_2 h_S_) main_v6 main_c_1
  let main_v8 : IVec S_ 1 := andi main_v3 main_v7
  let main_v9 : FVec F S16384x133x1 .f32 := Host.absf main_arg2
  let main_cst_2 : FVec F S_ .f32 := constant S_ .f32 0x7F800000#32
  let main_v10 : FVec F S16384x133x1 .f32 := broadcastInDim S16384x133x1 ![] bcast_S_S16384x133x1 main_cst_2
  let main_v11 : IVec S16384x133x1 1 := cmpf .olt main_v9 main_v10
  let main_c_3 : IVec S_ 1 := constantI S_ 1 1#1
  let main_v12 : IVec S_ 1 := (fun x v => Host.reduce IntOp.andi x v reducesTo_S16384x133x1_S_d0_1_2 h_S_) main_v11 main_c_3
  let main_v13 : IVec S_ 1 := andi main_v8 main_v12
  main_v13
-- ==== Kernel.lean ====
abbrev S16384x133x6 : Shape := ⟨3, ![16384, 133, 6]⟩
abbrev S16384x133x3 : Shape := ⟨3, ![16384, 133, 3]⟩
abbrev S16384x133x1 : Shape := ⟨3, ![16384, 133, 1]⟩
abbrev S6x16384x133 : Shape := ⟨3, ![6, 16384, 133]⟩
abbrev S3x16384x133 : Shape := ⟨3, ![3, 16384, 133]⟩
abbrev S16384 : Shape := ⟨1, ![16384]⟩
abbrev S6x128x133 : Shape := ⟨3, ![6, 128, 133]⟩
abbrev S3x128x133 : Shape := ⟨3, ![3, 128, 133]⟩
abbrev S128 : Shape := ⟨1, ![128]⟩
abbrev S1x128x133 : Shape := ⟨3, ![1, 128, 133]⟩
abbrev S128x133 : Shape := ⟨2, ![128, 133]⟩

abbrev nBuf : Space → Nat
  | .hbm => 6
  | .vmem => 6
  | .smem => 0
  | _ => 0

abbrev bufTy : (tb : Table) → Fin (tcTables nBuf tb) → BufTy
  | .hbm, ⟨0, _⟩ => ⟨S16384x133x6, .f32⟩
  | .hbm, ⟨1, _⟩ => ⟨S16384x133x3, .f32⟩
  | .hbm, ⟨2, _⟩ => ⟨S16384x133x1, .f32⟩
  | .hbm, ⟨3, _⟩ => ⟨S6x16384x133, .f32⟩
  | .hbm, ⟨4, _⟩ => ⟨S3x16384x133, .f32⟩
  | .hbm, ⟨5, _⟩ => ⟨S16384, .f32⟩
  | .local _ .vmem, ⟨0, _⟩ => ⟨S6x128x133, .f32⟩
  | .local _ .vmem, ⟨1, _⟩ => ⟨S6x128x133, .f32⟩
  | .local _ .vmem, ⟨2, _⟩ => ⟨S3x128x133, .f32⟩
  | .local _ .vmem, ⟨3, _⟩ => ⟨S3x128x133, .f32⟩
  | .local _ .vmem, ⟨4, _⟩ => ⟨S128, .f32⟩
  | .local _ .vmem, ⟨5, _⟩ => ⟨S128, .f32⟩
  | _, _ => ⟨S16384x133x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S6x128x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x133 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x133x6_S6x16384x133_2_0_1 : S16384x133x6.Transposes [2, 0, 1] S6x16384x133
  transposes_S16384x133x3_S3x16384x133_2_0_1 : S16384x133x3.Transposes [2, 0, 1] S3x16384x133
  inb_S6x128x133_S6x128x133_0_0_0 : ∀ a, (![0, 0, 0] : Fin 3 → Nat) a + S6x128x133.size a ≤ S6x128x133.size a
  h_S6x128x133 : 0 < S6x128x133.numel
  shapeCasts_S6x128x133_S6x128x133 : S6x128x133.ShapeCasts S6x128x133
  inb_S3x128x133_S3x128x133_0_0_0 : ∀ a, (![0, 0, 0] : Fin 3 → Nat) a + S3x128x133.size a ≤ S3x128x133.size a
  h_S3x128x133 : 0 < S3x128x133.numel
  shapeCasts_S3x128x133_S3x128x133 : S3x128x133.ShapeCasts S3x128x133
  slices_S6x128x133_o0_0_0_S1x128x133 : S6x128x133.Slices ![0, 0, 0] S1x128x133
  shapeCasts_S1x128x133_S128x133 : S1x128x133.ShapeCasts S128x133
  slices_S6x128x133_o1_0_0_S1x128x133 : S6x128x133.Slices ![1, 0, 0] S1x128x133
  slices_S6x128x133_o2_0_0_S1x128x133 : S6x128x133.Slices ![2, 0, 0] S1x128x133
  slices_S6x128x133_o3_0_0_S1x128x133 : S6x128x133.Slices ![3, 0, 0] S1x128x133
  slices_S6x128x133_o4_0_0_S1x128x133 : S6x128x133.Slices ![4, 0, 0] S1x128x133
  slices_S6x128x133_o5_0_0_S1x128x133 : S6x128x133.Slices ![5, 0, 0] S1x128x133
  slices_S3x128x133_o0_0_0_S1x128x133 : S3x128x133.Slices ![0, 0, 0] S1x128x133
  slices_S3x128x133_o1_0_0_S1x128x133 : S3x128x133.Slices ![1, 0, 0] S1x128x133
  slices_S3x128x133_o2_0_0_S1x128x133 : S3x128x133.Slices ![2, 0, 0] S1x128x133
  natLt_1_32 : 1 < 32
  reduces_S128x133_S128 : S128x133.Reduces [1] S128
  inb_S128_S128_0 : ∀ a, (![0] : Fin 1 → Nat) a + S128.size a ≤ S128.size a
  h_S128 : 0 < S128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x128x133.size a ≤ S6x16384x133.size a
  hwx0_0 : ∀ i : grid0.Coords, EltTy.bits .f32 = 32 ∨ (Rect.block (s := S6x16384x133) S6x128x133.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128x133.size a ≤ S3x16384x133.size a
  hwx0_1 : ∀ i : grid0.Coords, EltTy.bits .f32 = 32 ∨ (Rect.block (s := S3x16384x133) S3x128x133.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S16384.size a
  hwx0_2 : ∀ i : grid0.Coords, EltTy.bits .f32 = 32 ∨ (Rect.block (s := S16384) S128.size (cc0_transform_2 i) (hinb0_2 i)).WholeWords (EltTy.packing .f32)

variable [Facts₀]

abbrev win0_0 : Pipeline.Window sig grid0 :=
  Pipeline.Window.ofSpec (Memref.whole main_v0) S6x128x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x128x133.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x133x6 : Shape := ⟨3, ![16384, 133, 6]⟩
abbrev S16384x133x3 : Shape := ⟨3, ![16384, 133, 3]⟩
abbrev S16384x133x1 : Shape := ⟨3, ![16384, 133, 1]⟩
abbrev S16384x133x2 : Shape := ⟨3, ![16384, 133, 2]⟩
abbrev S16384x133 : Shape := ⟨2, ![16384, 133]⟩
abbrev S_ : Shape := ⟨0, ![]⟩
abbrev S16384 : Shape := ⟨1, ![16384]⟩

abbrev nBuf : Space → Nat
  | .hbm => 63
  | .vmem => 0
  | .smem => 0
  | _ => 0

abbrev bufTy : (tb : Table) → Fin (tcTables nBuf tb) → BufTy
  | .hbm, ⟨0, _⟩ => ⟨S16384x133x6, .f32⟩
  | .hbm, ⟨1, _⟩ => ⟨S16384x133x3, .f32⟩
  | .hbm, ⟨2, _⟩ => ⟨S16384x133x1, .f32⟩
  | .hbm, ⟨3, _⟩ => ⟨S16384x133x2, .f32⟩
  | .hbm, ⟨4, _⟩ => ⟨S16384x133x1, .f32⟩
  | .hbm, ⟨5, _⟩ => ⟨S16384x133, .f32⟩
  | .hbm, ⟨6, _⟩ => ⟨S16384x133x1, .f32⟩
  | .hbm, ⟨7, _⟩ => ⟨S16384x133, .f32⟩
  | .hbm, ⟨8, _⟩ => ⟨S16384x133x1, .f32⟩
  | .hbm, ⟨9, _⟩ => ⟨S16384x133, .f32⟩
  | .hbm, ⟨10, _⟩ => ⟨S16384x133x1, .f32⟩
  | .hbm, ⟨11, _⟩ => ⟨S16384x133, .f32⟩
  | .hbm, ⟨12, _⟩ => ⟨S16384x133x2, .f32⟩
  | .hbm, ⟨13, _⟩ => ⟨S16384x133x1, .f32⟩
  | .hbm, ⟨14, _⟩ => ⟨S16384x133, .f32⟩
  | .hbm, ⟨15, _⟩ => ⟨S_, .f32⟩
  | .hbm, ⟨16, _⟩ => ⟨S16384x133, .f32⟩
  | .hbm, ⟨17, _⟩ => ⟨S16384x133, .i1⟩
  | .hbm, ⟨18, _⟩ => ⟨S16384x133, .f32⟩
  | .hbm, ⟨19, _⟩ => ⟨S_, .f32⟩
  | .hbm, ⟨20, _⟩ => ⟨S16384x133, .f32⟩
  | .hbm, ⟨21, _⟩ => ⟨S16384x133, .f32⟩
  | .hbm, ⟨22, _⟩ => ⟨S16384x133, .f32⟩
  | .hbm, ⟨23, _⟩ => ⟨S16384x133, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x133x2, .f32⟩
  | .hbm, ⟨28, _⟩ => ⟨S16384x133x1, .f32⟩
  | .hbm, ⟨29, _⟩ => ⟨S16384x133, .f32⟩
  | .hbm, ⟨30, _⟩ => ⟨S16384x133x1, .f32⟩
  | .hbm, ⟨31, _⟩ => ⟨S16384x133, .f32⟩
  | .hbm, ⟨32, _⟩ => ⟨S16384x133, .f32⟩
  | .hbm, ⟨33, _⟩ => ⟨S16384x133, .f32⟩
  | .hbm, ⟨34, _⟩ => ⟨S16384x133, .f32⟩
  | .hbm, ⟨35, _⟩ => ⟨S16384x133, .f32⟩
  | .hbm, ⟨36, _⟩ => ⟨S16384x133, .f32⟩
  | .hbm, ⟨37, _⟩ => ⟨S_, .f32⟩
  | .hbm, ⟨38, _⟩ => ⟨S16384x133, .f32⟩
  | .hbm, ⟨39, _⟩ => ⟨S16384x133, .f32⟩
  | .hbm, ⟨40, _⟩ => ⟨S16384x133, .f32⟩
  | .hbm, ⟨41, _⟩ => ⟨S16384x133, .f32⟩
  | .hbm, ⟨42, _⟩ => ⟨S16384x133, .f32⟩
  | .hbm, ⟨43, _⟩ => ⟨S16384x133, .f32⟩
  | .hbm, ⟨44, _⟩ => ⟨S16384x133, .f32⟩
  | .hbm, ⟨45, _⟩ => ⟨S16384x133, .f32⟩
  | .hbm, ⟨46, _⟩ => ⟨S16384x133, .f32⟩
  | .hbm, ⟨47, _⟩ => ⟨S16384x133, .f32⟩
  | .hbm, ⟨48, _⟩ => ⟨S16384x133, .f32⟩
  | .hbm, ⟨49, _⟩ => ⟨S16384x133, .f32⟩
  | .hbm, ⟨50, _⟩ => ⟨S16384x133, .f32⟩
  | .hbm, ⟨51, _⟩ => ⟨S_, .f32⟩
  | .hbm, ⟨52, _⟩ => ⟨S16384x133, .f32⟩
  | .hbm, ⟨53, _⟩ => ⟨S16384x133, .f32⟩
  | .hbm, ⟨54, _⟩ => ⟨S_, .f32⟩
  | .hbm, ⟨55, _⟩ => ⟨S16384x133, .f32⟩
  | .hbm, ⟨56, _⟩ => ⟨S16384x133, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | _, _ => ⟨S16384x133x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]

class Facts₀ : Prop where
  slices_S16384x133x6_S16384x133x2_0_0_0 : S16384x133x6.Slices ![0, 0, 0] S16384x133x2
  slices_S16384x133x6_S16384x133x1_0_0_2 : S16384x133x6.Slices ![0, 0, 2] S16384x133x1
  shapeCasts_S16384x133x1_S16384x133 : S16384x133x1.ShapeCasts S16384x133
  slices_S16384x133x6_S16384x133x1_0_0_3 : S16384x133x6.Slices ![0, 0, 3] S16384x133x1
  slices_S16384x133x6_S16384x133x1_0_0_4 : S16384x133x6.Slices ![0, 0, 4] S16384x133x1
  slices_S16384x133x6_S16384x133x1_0_0_5 : S16384x133x6.Slices ![0, 0, 5] S16384x133x1
  slices_S16384x133x3_S16384x133x2_0_0_0 : S16384x133x3.Slices ![0, 0, 0] S16384x133x2
  slices_S16384x133x3_S16384x133x1_0_0_2 : S16384x133x3.Slices ![0, 0, 2] S16384x133x1
  bcast_S_S16384x133 : S_.BroadcastsInDim S16384x133 (![] : Fin 0 → Fin S16384x133.rank)
  reducesTo_S16384x133_S16384_d1 : S16384x133.ReducesTo [1] S16384
  h_S_ : 0 < S_.numel
  slices_S16384x133x2_S16384x133x1_0_0_0 : S16384x133x2.Slices ![0, 0, 0] S16384x133x1
  slices_S16384x133x2_S16384x133x1_0_0_1 : S16384x133x2.Slices ![0, 0, 1] S16384x133x1
  bcast_S_S16384 : S_.BroadcastsInDim S16384 (![] : Fin 0 → Fin S16384.rank)

variable [Facts₀]

class Facts : Prop extends Facts₀ where

variable [Facts]
-- ==== Proof.NllSpec.lean ====
/-
  The loss both programs compute, as one function of the two argument arrays.

  A record `(n, k)` (sample `n`, keypoint `k`) of the prediction has six channels: a predicted position `(px, py)`, the
  entries `a, b, c` of a symmetric 2×2 covariance `[[a, c], [c, b]]`, and a probability `lab` that the keypoint is
  labelled; a record of the target has three: the true position `(gx, gy)` and a visibility entry `vis`. With
  `d = (gx − px, gy − py)`, `det = a·b − c·c` and the quadratic form `q = (b·dx² − 2·c·dx·dy + a·dy²) / det`
  (that is `dᵀ Σ⁻¹ d` by the closed-form inverse), a keypoint contributes the Gaussian negative log-likelihood
  `[vis ≠ 0] · (log det + q) · ½ + log 2π` and the label term `log lab` where `vis ≠ 0`, `log (1 − lab)` elsewhere;
  a sample's loss is the sum of the first over its 133 keypoints minus the sum of the second.

  Everything is on the extended reals, with the operations of the exact instance (its `log`, its quotient); the float
  constants 2, ½, 1 and the rounded `log 2π` stay the binary words both programs print, never evaluated here.
-/
import Idealize.ShloMosaic.PureOps.Ideal
import Idealize.ShloMosaic.Lib.ValueIdx

noncomputable section

namespace Cert.PoseNll

open Idealize.ShloMosaic Idealize.ShloMosaic.ValueIdx
open scoped BigOperators

/-- The keypoint counts as visible: its visibility entry differs from 0 (a one-bit flag). -/
def seen (vis : EReal) : BitVec 1 := Ideal.cmp .one vis (Ideal.ofBits .f32 0x00000000#32)

/-- The determinant of the covariance `[[a, c], [c, b]]`. -/
def det (a b c : EReal) : EReal := a * b - c * c

/-- `det` times the quadratic form of the inverse covariance at the offset `(dx, dy)`: `b·dx² − 2·c·dx·dy + a·dy²`. -/
def adjQuad (a b c dx dy : EReal) : EReal :=
  b * dx * dx - Ideal.ofBits .f32 0x40000000#32 * c * dx * dy + a * dy * dy

/-- One keypoint's Gaussian term: `[vis ≠ 0] · (log det + dᵀ Σ⁻¹ d) · ½ + log 2π`. -/
def nllTerm (px py a b c gx gy vis : EReal) : EReal :=
  ((((seen vis).toNat : ℕ) : ℝ) : EReal)
      * (Ideal.log (det a b c) + Ideal.div (adjQuad a b c (gx - px) (gy - py)) (det a b c))
      * Ideal.ofBits .f32 0x3F000000#32
    + Ideal.ofBits .f32 0x3FEB3F8E#32

/-- One keypoint's label term: `log lab` where visible, `log (1 − lab)` where not. -/
def labelTerm (lab vis : EReal) : EReal :=
  Scalar.select (seen vis) (Ideal.log lab) (Ideal.log (Ideal.ofBits .f32 0x3F800000#32 - lab))

/-- One sample's loss from its 133 keypoints' channels (`o ch k` the prediction's, `g ch k` the target's): the Gaussian
    terms summed, minus the label terms summed. -/
def rowLoss (o : Fin 6 → Fin 133 → EReal) (g : Fin 3 → Fin 133 → EReal) : EReal :=
  (∑ k : Fin 133, nllTerm (o 0 k) (o 1 k) (o 2 k) (o 3 k) (o 4 k) (g 0 k) (g 1 k) (g 2 k))
    + -(∑ k : Fin 133, labelTerm (o 5 k) (g 2 k))

/-- The result array: sample `n`'s loss from row `n` of the prediction `[16384, 133, 6]` and of the target
    `[16384, 133, 3]`. -/
def loss (out : (⟨3, ![16384, 133, 6]⟩ : Shape).Idx → EReal) (tgt : (⟨3, ![16384, 133, 3]⟩ : Shape).Idx → EReal) :
    (⟨1, ![16384]⟩ : Shape).Idx → EReal :=
  fun i => rowLoss (fun ch k => out (ix3 (i 0) k ch)) (fun ch k => tgt (ix3 (i 0) k ch))

end Cert.PoseNll

end
-- ==== Proof.LibChannelLayout.lean ====
/-
  Arrays with a small channel axis, read at an index written by coordinates.

  A batch of records kept record-major, `[n, k, c]` (the channel last), and the same data channel-major, `[c, n, k]`
  (one `[n, k]` plane per channel), are the two layouts a per-channel computation meets. Here: one channel of the
  record-major array as a matrix (slice `[n, k, 1]` at channel `c₀`, then drop the unit axis) reads `x (p, q, c₀)`;
  the first few channels kept together (slice `[n, k, c']` at the origin) read the operand at the same coordinates;
  moving the channel axis to the front reads `x (p, q, ch)` at `(ch, p, q)`; and one plane of the channel-major array
  (slice `[1, a, b]` at plane `c₀`, then drop the unit axis — the array first cast to its own shape, as a vector
  load prints it) reads `x (c₀, i, j)`.

  And two facts about a one-bit flag at the exact instance: widened to a word and read as a signed integer it is the
  same number as read unsigned directly, and the comparisons "ordered and different" and "unordered or different" are
  one function on the extended reals, where nothing is unordered.
-/
import Idealize.ShloMosaic.Lib.ValueLayout
import Idealize.ShloMosaic.Lib.IdealHost
import Idealize.ShloMosaic.PureOps.Ideal.Laws

noncomputable section

namespace Cert.LibChannelLayout

open Idealize.ShloMosaic Idealize.ShloMosaic.ValueIdx

variable {α : Type}

/-! ## Record-major: the channel axis last -/

/-- Channel `c₀` of an `[n, k, c]` array, sliced out as `[n, k, 1]` and cast to the matrix `[n, k]`, reads at `(p, q)`
    the operand at `(p, q, c₀)`. -/
theorem lastChannel_apply {n k c : ℕ} (c₀ : ℕ) (hc₀ : c₀ < c) (x : (⟨3, ![n, k, c]⟩ : Shape).Idx → α)
    (hs : (⟨3, ![n, k, c]⟩ : Shape).Slices ![0, 0, c₀] ⟨3, ![n, k, 1]⟩)
    (hc : (⟨3, ![n, k, 1]⟩ : Shape).ShapeCasts ⟨2, ![n, k]⟩) (p : Fin n) (q : Fin k) :
    shapeCast ⟨2, ![n, k]⟩ (extractStridedSlice ⟨3, ![n, k, 1]⟩ ![0, 0, c₀] x hs) hc (ix2 p q)
      = x (ix3 p q ⟨c₀, hc₀⟩) :=
  (shapeCast_apply _ hc (ix2 p q) (ix3 p q (0 : Fin 1)) (by
      rw [Shape.rowMajor_val_three, Shape.rowMajor_val_two]
      show (p.val * k + q.val) * 1 + 0 = p.val * k + q.val
      rw [Nat.mul_one, Nat.add_zero])).trans
    (extractStridedSlice_apply ![0, 0, c₀] x hs (ix3 p q (0 : Fin 1)) (ix3 p q ⟨c₀, hc₀⟩) fun a =>
      match a with
      | ⟨0, _⟩ => (Nat.zero_add _).symm
      | ⟨1, _⟩ => (Nat.zero_add _).symm
      | ⟨2, _⟩ => (Nat.add_zero _).symm)

/-- The first `c'` channels of an `[n, k, c]` array, sliced out together, read the operand at the same coordinates. -/
theorem firstChannels_apply {n k c c' : ℕ} (hcc : c' ≤ c) (x : (⟨3, ![n, k, c]⟩ : Shape).Idx → α)
    (hs : (⟨3, ![n, k, c]⟩ : Shape).Slices ![0, 0, 0] ⟨3, ![n, k, c']⟩) (p : Fin n) (q : Fin k) (ch : Fin c') :
    extractStridedSlice ⟨3, ![n, k, c']⟩ ![0, 0, 0] x hs (ix3 p q ch) = x (ix3 p q ⟨ch.val, Nat.lt_of_lt_of_le ch.isLt hcc⟩) :=
  extractStridedSlice_apply ![0, 0, 0] x hs (ix3 p q ch) (ix3 p q ⟨ch.val, Nat.lt_of_lt_of_le ch.isLt hcc⟩) fun a =>
    match a with
    | ⟨0, _⟩ => (Nat.zero_add _).symm
    | ⟨1, _⟩ => (Nat.zero_add _).symm
    | ⟨2, _⟩ => (Nat.zero_add _).symm

/-- The channel axis moved to the front (`[n, k, c] → [c, n, k]`): plane `ch` at `(p, q)` is the record `(p, q)`'s
    channel `ch`. -/
theorem channelFirst_apply {n k c : ℕ} (x : (⟨3, ![n, k, c]⟩ : Shape).Idx → α)
    (h : (⟨3, ![n, k, c]⟩ : Shape).Transposes [2, 0, 1] ⟨3, ![c, n, k]⟩) (ch : Fin c) (p : Fin n) (q : Fin k) :
    transpose ⟨3, ![c, n, k]⟩ [2, 0, 1] x h (ix3 ch p q) = x (ix3 p q ch) :=
  transpose_apply _ x h _ _ fun b => match b with | ⟨0, _⟩ => rfl | ⟨1, _⟩ => rfl | ⟨2, _⟩ => rfl

/-! ## Channel-major: one plane per channel -/

/-- Plane `c₀` of a `[c, a, b]` array (cast to its own shape first), sliced out as `[1, a, b]` and cast to the matrix
    `[a, b]`, reads at `(i, j)` the operand at `(c₀, i, j)`. -/
theorem plane_apply {c a b : ℕ} (c₀ : ℕ) (hc₀ : c₀ < c) (x : (⟨3, ![c, a, b]⟩ : Shape).Idx → α)
    (h₀ : (⟨3, ![c, a, b]⟩ : Shape).ShapeCasts ⟨3, ![c, a, b]⟩)
    (hs : (⟨3, ![c, a, b]⟩ : Shape).Slices ![c₀, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![c₀, 0, 0] (shapeCast ⟨3, ![c, a, b]⟩ x h₀) hs) hc (ix2 i j)
      = x (ix3 ⟨c₀, hc₀⟩ i j) := by
  rw [shapeCast_self x h₀]
  exact (shapeCast_1ab_ab_apply _ hc i j).trans
    (extractStridedSlice_apply ![c₀, 0, 0] x hs (ix3 (0 : Fin 1) i j) (ix3 ⟨c₀, hc₀⟩ i j) fun d =>
      match d with
      | ⟨0, _⟩ => (Nat.add_zero _).symm
      | ⟨1, _⟩ => (Nat.zero_add _).symm
      | ⟨2, _⟩ => (Nat.zero_add _).symm)

/-! ## A one-bit flag as a number, and "different" on the extended reals -/

/-- A one-bit flag widened to 32 bits and read as a signed integer is the flag read as a natural number: 0 or 1. -/
theorem bit_widened_toInt (b : BitVec 1) : (b.setWidth 32).toInt = (b.toNat : ℤ) := by
  revert b; decide

/-- So, as extended reals, the signed reading of the widened flag and the unsigned reading of the flag agree. -/
theorem bit_signed_eq_unsigned (b : BitVec 1) :
    ((((b.setWidth 32).toInt : ℤ) : ℝ) : EReal) = (((b.toNat : ℕ) : ℝ) : EReal) := by
  rw [bit_widened_toInt b, Int.cast_natCast]

/-- Nothing is unordered on the extended reals: "unordered or different" is "ordered and different". -/
theorem cmp_une_eq_one (x y : EReal) : Ideal.cmp .une x y = Ideal.cmp .one x y := rfl

end Cert.LibChannelLayout

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KernelRowLoss.lean ====
/-
  What the kernel body leaves in one row of its output block.

  At a grid point the body holds a `[6, 128, 133]` block of the channel-major prediction and a `[3, 128, 133]` block of
  the channel-major target, takes each channel's `[128, 133]` plane, works entry by entry, and sums each of the 128
  rows over its 133 lanes twice: once the Gaussian terms, once the label terms, the second sum subtracted from the word
  0 and added to the first. Row `r` of the `[128]` result is therefore `rowLoss` of row `r` of the two blocks' planes:
  entry `(r, k)` of plane `ch` is the block at `(ch, r, k)`, a lane sum is the sum over `k`, and `0 − s = −s` for every
  extended real. The visibility flag is widened to a word and converted signed here; as a number that is the flag read as
  0 or 1.
-/
import proofs.«127953_j41815801593982_2_alg».proof.Proof.Gen.KernelIdeal.Value
import proofs.«127953_j41815801593982_2_alg».proof.Proof.NllSpec
import proofs.«127953_j41815801593982_2_alg».proof.Proof.LibChannelLayout
import proofs.«127953_j41815801593982_2_alg».proof.Proof.LibRowwise

noncomputable section

namespace Cert.KernelIdeal.RowLoss

open Cert.KernelIdeal Cert.KernelIdeal.Gen
open Idealize.ShloMosaic Idealize.ShloMosaic.ValueIdx
open Cert.LibChannelLayout Cert.LibRowwise Cert.PoseNll
open scoped BigOperators

/-- The vector unit's logarithm at an index is the exact instance's `log` of the entry. -/
theorem log_apply {s : Shape} {φ : FTy} (a : FVec Ideal s φ) (i : s.Idx) : log a i = Ideal.log (a i) := rfl

/-- `nllTerm` with the visibility flag widened to a word and read signed: the same number. -/
theorem nllTerm_signed (px py a b c gx gy vis : EReal) :
    nllTerm px py a b c gx gy vis
      = (((((seen vis).setWidth 32).toInt : ℤ) : ℝ) : EReal)
            * (Ideal.log (det a b c) + Ideal.div (adjQuad a b c (gx - px) (gy - py)) (det a b c))
            * Ideal.ofBits .f32 0x3F000000#32
          + Ideal.ofBits .f32 0x3FEB3F8E#32 := by
  unfold nllTerm
  rw [bit_signed_eq_unsigned]

/-- A row's lane sum of one matrix plus (the word 0 minus the row's lane sum of another): the first row summed, minus
    the second row summed, once each entry of the two rows is known. -/
theorem rowSum_sub_rowSum {a b : ℕ} (A B : FVec Ideal ⟨2, ![a, b]⟩ .f32)
    (h : (⟨2, ![a, b]⟩ : Shape).Reduces [1] ⟨1, ![a]⟩) (hφ₁ hφ₂ : FKind.Formats .f32)
    (hacc₁ : (0x00000000#32 : BitVec FTy.f32.bits) = FKind.add.neutral .f32 hφ₁)
    (hacc₂ : (0x00000000#32 : BitVec FTy.f32.bits) = FKind.add.neutral .f32 hφ₂)
    (p : Fin a) (f g : Fin b → EReal) (hf : ∀ k, A (ix2 p k) = f k) (hg : ∀ k, B (ix2 p k) = g k) :
    multiReduction .add [1] ⟨1, ![a]⟩ A 0x00000000#32 h hφ₁ hacc₁ (ix1 p)
        + (Ideal.ofBits .f32 0x00000000#32 - multiReduction .add [1] ⟨1, ![a]⟩ B 0x00000000#32 h hφ₂ hacc₂ (ix1 p))
      = (∑ k : Fin b, f k) + -(∑ k : Fin b, g k) := by
  rw [rowSum_apply A _ h hφ₁ hacc₁ p, rowSum_apply B _ h hφ₂ hacc₂ p, Ideal.ofBits_zero_f32, zero_sub]
  simp only [hf, hg]

variable (P0 : Vec Ideal S3x128x133 .f32) (P1 : Vec Ideal S6x128x133 .f32) (r : Fin 128)

/-- Row `r` of what the body stores, from the target block `P0` and the prediction block `P1`, is `rowLoss` of row `r`
    of their planes. -/
theorem block_row :
    Value.E2 (F := Ideal) P0 P1 (ix1 r) = rowLoss (fun ch k => P1 (ix3 ch r k)) (fun ch k => P0 (ix3 ch r k)) := by
  have e0 : Value.ix2_0 (ix1 r) = ix1 r := funext fun a => by match a with | ⟨0, _⟩ => rfl
  have e1 : Value.ix2_1 (ix1 r) = ix1 r := funext fun a => by match a with | ⟨0, _⟩ => rfl
  -- the nine planes at an entry of row `r`
  have o0 : ∀ k : Fin 133, _ = P1 (ix3 (0 : Fin 6) r k) := fun k =>
    plane_apply 0 (by decide) P1 shapeCasts_S6x128x133_S6x128x133 slices_S6x128x133_o0_0_0_S1x128x133 shapeCasts_S1x128x133_S128x133 r k
  have o1 : ∀ k : Fin 133, _ = P1 (ix3 (1 : Fin 6) r k) := fun k =>
    plane_apply 1 (by decide) P1 shapeCasts_S6x128x133_S6x128x133 slices_S6x128x133_o1_0_0_S1x128x133 shapeCasts_S1x128x133_S128x133 r k
  have o2 : ∀ k : Fin 133, _ = P1 (ix3 (2 : Fin 6) r k) := fun k =>
    plane_apply 2 (by decide) P1 shapeCasts_S6x128x133_S6x128x133 slices_S6x128x133_o2_0_0_S1x128x133 shapeCasts_S1x128x133_S128x133 r k
  have o3 : ∀ k : Fin 133, _ = P1 (ix3 (3 : Fin 6) r k) := fun k =>
    plane_apply 3 (by decide) P1 shapeCasts_S6x128x133_S6x128x133 slices_S6x128x133_o3_0_0_S1x128x133 shapeCasts_S1x128x133_S128x133 r k
  have o4 : ∀ k : Fin 133, _ = P1 (ix3 (4 : Fin 6) r k) := fun k =>
    plane_apply 4 (by decide) P1 shapeCasts_S6x128x133_S6x128x133 slices_S6x128x133_o4_0_0_S1x128x133 shapeCasts_S1x128x133_S128x133 r k
  have o5 : ∀ k : Fin 133, _ = P1 (ix3 (5 : Fin 6) r k) := fun k =>
    plane_apply 5 (by decide) P1 shapeCasts_S6x128x133_S6x128x133 slices_S6x128x133_o5_0_0_S1x128x133 shapeCasts_S1x128x133_S128x133 r k
  have g0 : ∀ k : Fin 133, _ = P0 (ix3 (0 : Fin 3) r k) := fun k =>
    plane_apply 0 (by decide) P0 shapeCasts_S3x128x133_S3x128x133 slices_S3x128x133_o0_0_0_S1x128x133 shapeCasts_S1x128x133_S128x133 r k
  have g1 : ∀ k : Fin 133, _ = P0 (ix3 (1 : Fin 3) r k) := fun k =>
    plane_apply 1 (by decide) P0 shapeCasts_S3x128x133_S3x128x133 slices_S3x128x133_o1_0_0_S1x128x133 shapeCasts_S1x128x133_S128x133 r k
  have g2 : ∀ k : Fin 133, _ = P0 (ix3 (2 : Fin 3) r k) := fun k =>
    plane_apply 2 (by decide) P0 shapeCasts_S3x128x133_S3x128x133 slices_S3x128x133_o2_0_0_S1x128x133 shapeCasts_S1x128x133_S128x133 r k
  unfold rowLoss
  dsimp only
  show (multiReduction .add [1] S128 _ 0x00000000#32 _ _ _ (Value.ix2_0 (ix1 r)))
      + (Ideal.ofBits .f32 0x00000000#32 - (multiReduction .add [1] S128 _ 0x00000000#32 _ _ _ (Value.ix2_1 (ix1 r)))) = _
  rw [e0, e1]
  apply rowSum_sub_rowSum
  · -- one Gaussian term
    intro k
    simp only [addf_apply, mulf_apply, subf_apply, divf_apply, sitofp_apply, extui_apply, cmpf_apply, broadcast_apply,
      log_apply, o0, o1, o2, o3, o4, g0, g1, g2]
    rw [nllTerm_signed]
    rfl
  · -- one label term
    intro k
    simp only [select_apply, subf_apply, cmpf_apply, broadcast_apply, log_apply, o5, g2]
    rfl

end Cert.KernelIdeal.RowLoss

end
-- ==== Proof.KernelArrayLoss.lean ====
/-
  The kernel's result array is `loss` of its two first arguments.

  Before the region the program lays both arguments out channel-major (`[16384, 133, c] → [c, 16384, 133]`). The grid
  has 128 points; point `t` is given rows `128·t … 128·t + 127` of every plane of both channel-major arrays, and writes
  rows `128·t … 128·t + 127` of the `[16384]` result. So the block entry `(ch, r, k)` at point `t` is the argument's
  record `(128·t + r, k)`, channel `ch`; by the row lemma the value written to result index `128·t + r` is `rowLoss` of
  that sample's two rows, which is `loss` there; and every result index `i` lies in the block of point `i / 128`, so
  the blocks cover the array and it ends holding `loss` everywhere.
-/
import proofs.«127953_j41815801593982_2_alg».proof.Proof.Gen.KernelIdeal.Value
import proofs.«127953_j41815801593982_2_alg».proof.Proof.KernelRowLoss
import Idealize.ShloMosaic.Lib.StableHlo.Run
import Idealize.ShloMosaic.Lib.Pipeline.Value
import Idealize.ShloMosaic.Lib.Tactic

noncomputable section

namespace Cert.KernelIdeal.ArrayLoss

open Cert.KernelIdeal Cert.KernelIdeal.Gen
open Idealize.ShloMosaic Idealize.ShloMosaic.TcCoe Idealize.SL.Sem Idealize.ShloMosaic.ValueIdx
open Idealize.ShloMosaic.Pipeline (Dat)
open Cert.LibChannelLayout Cert.PoseNll

variable (m : (ℓ : Loc nD τ sig) → Buf (Elt Ideal) ℓ) (ρ : Dev nD → PrngReg)

theorem hz3 : (![0, 0, 0] : Fin 3 → Nat) = fun _ => 0 := funext fun a => by fin_cases a <;> rfl

/-! ## The arrays the region finds -/

/-- The first window's array is the prediction laid out channel-major. -/
theorem staged_pred (c : Dev nD) :
    (V m c main_v0 : S6x16384x133.Idx → EReal)
      = transpose S6x16384x133 [2, 0, 1] (m ((c : Thread nD τ).loc main_arg0)) transposes_S16384x133x6_S6x16384x133_2_0_1 := by
  dsimp only [Gen.V, Gen.hostOps0]; after_results

/-- The second window's array is the target laid out channel-major. -/
theorem staged_tgt (c : Dev nD) :
    (V m c main_v1 : S3x16384x133.Idx → EReal)
      = transpose S3x16384x133 [2, 0, 1] (m ((c : Thread nD τ).loc main_arg1)) transposes_S16384x133x3_S3x16384x133_2_0_1 := by
  dsimp only [Gen.V, Gen.hostOps0]; after_results

/-! ## Which rows a grid point is given -/

/-- The printed index maps over the 128 grid points: every window moves along the sample axis with the point, and
    along no other. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 1) = t.val :=
  (by decide +kernel : ∀ t : Fin grid0.N, _)

theorem point_lt (t : Fin cfg0.N) : t.val < 128 := by
  have h : cfg0.N = 128 := N_0
  have := t.isLt
  omega

/-- The sample that row `r` of point `t`'s blocks belongs to. -/
abbrev sampleOf (t : Fin cfg0.N) (r : Fin 128) : Fin 16384 :=
  ⟨t.val * 128 + r.val, by have := point_lt t; have := r.isLt; omega⟩

/-- Entry `(ch, r, k)` of the prediction's block at point `t` is record `(128·t + r, k)`'s channel `ch`. -/
theorem pred_block (c : Dev nD) (t : Fin cfg0.N) (ch : Fin 6) (r : Fin 128) (k : Fin 133) :
    (iblk m c 0 t : Vec Ideal S6x128x133 .f32) (ix3 ch r k)
      = (m ((c : Thread nD τ).loc main_arg0) : S16384x133x6.Idx → EReal) (ix3 (sampleOf t r) k ch) := by
  obtain ⟨e0, e1, e2, -⟩ := idx_facts t
  unfold iblk
  rw [View.read_apply]
  show (V m c main_v0 : S6x16384x133.Idx → EReal) _ = _
  rw [staged_pred m c]
  refine transpose_apply _ _ _ _ _ fun b => ?_
  match b with
  | ⟨0, _⟩ => show ch.val = win0_0.index t (0 : Fin 3) * 6 + 1 * ch.val; rw [e0]; omega
  | ⟨1, _⟩ => show t.val * 128 + r.val = win0_0.index t (1 : Fin 3) * 128 + 1 * r.val; rw [e1]; omega
  | ⟨2, _⟩ => show k.val = win0_0.index t (2 : Fin 3) * 133 + 1 * k.val; rw [e2]; omega

/-- Entry `(ch, r, k)` of the target's block at point `t` is record `(128·t + r, k)`'s channel `ch`. -/
theorem tgt_block (c : Dev nD) (t : Fin cfg0.N) (ch : Fin 3) (r : Fin 128) (k : Fin 133) :
    (iblk m c 1 t : Vec Ideal S3x128x133 .f32) (ix3 ch r k)
      = (m ((c : Thread nD τ).loc main_arg1) : S16384x133x3.Idx → EReal) (ix3 (sampleOf t r) k ch) := by
  obtain ⟨-, -, -, e0, e1, e2, -⟩ := idx_facts t
  unfold iblk
  rw [View.read_apply]
  show (V m c main_v1 : S3x16384x133.Idx → EReal) _ = _
  rw [staged_tgt m c]
  refine transpose_apply _ _ _ _ _ fun b => ?_
  match b with
  | ⟨0, _⟩ => show ch.val = win0_1.index t (0 : Fin 3) * 3 + 1 * ch.val; rw [e0]; omega
  | ⟨1, _⟩ => show t.val * 128 + r.val = win0_1.index t (1 : Fin 3) * 128 + 1 * r.val; rw [e1]; omega
  | ⟨2, _⟩ => show k.val = win0_1.index t (2 : Fin 3) * 133 + 1 * k.val; rw [e2]; omega

/-! ## What a grid point writes -/

/-- Row `r` of what the body leaves at point `t` is the loss of sample `128·t + r`. -/
theorem body_row (c : Dev nD) (t : Fin cfg0.N) (r : Fin 128) :
    out0_2 (iblk m c 0 t) (iblk m c 1 t) (ix1 r)
      = loss (m ((c : Thread nD τ).loc main_arg0)) (m ((c : Thread nD τ).loc main_arg1)) (ix1 (sampleOf t r)) := by
  unfold out0_2
  rw [Value.canon2_eq, View.ld_unit_zero (S := S3x128x133) hz3, View.ld_unit_zero (S := S6x128x133) hz3,
    RowLoss.block_row]
  show rowLoss _ _ = rowLoss _ _
  congr 1
  · funext ch k; exact pred_block m c t ch r k
  · funext ch k; exact tgt_block m c t ch r k

/-- WHAT POINT `t` WRITES BACK is block `t` of `loss` of the two arguments. -/
theorem flushed_eq (c : Dev nD) (t : Fin cfg0.N) :
    (dats m 0 c).flushed 2 t
      = ((cfg0.win 2).blk t).view.read (Elt Ideal)
          (loss (m ((c : Thread nD τ).loc main_arg0)) (m ((c : Thread nD τ).loc main_arg1))) := by
  rw [Value.flushed2]
  obtain ⟨-, -, -, -, -, -, e⟩ := idx_facts t
  funext j
  have hr : (j 0).val < 128 := (j 0).isLt
  have hx : (cfg0.win 2).xinj (grid0.coords t) j = ix1 (⟨(j 0).val, hr⟩ : Fin 128) :=
    funext fun a => by match a with | ⟨0, _⟩ => rfl
  show out0_2 (iblk m c 0 t) (iblk m c 1 t) ((cfg0.win 2).xinj (grid0.coords t) j)
      = loss _ _ (((cfg0.win 2).blk t).view.emb j)
  rw [hx, body_row m c t ⟨(j 0).val, hr⟩]
  refine congrArg (loss _ _) (funext fun a => Fin.ext ?_)
  match a with
  | ⟨0, _⟩ => show t.val * 128 + (j 0).val = win0_2.index t (0 : Fin 1) * 128 + 1 * (j 0).val; rw [e]; omega

/-! ## The blocks cover the result -/

/-- An index of the result is in point `t`'s block iff it is one of rows `128·t … 128·t + 127`. -/
theorem mem_blk (t : Fin cfg0.N) (i : S16384.Idx) :
    i ∈ ((cfg0.win 2).blk t).view.set
      ↔ ∀ a : Fin 1, win0_2.index t a * S128.size a ≤ (i a).val ∧ (i a).val < win0_2.index t a * S128.size a + S128.size a := by
  show i ∈ ((View.whole main_v2).slice (win0_2.rect t)).set ↔ _
  rw [View.set_slice_whole, Rect.mem_set_unit]
  exact Iff.rfl

/-- Every index `i` of the result is in the block of point `i / 128`. -/
theorem covered (i : S16384.Idx) :
    ∃ t : Fin cfg0.N, (cfg0.win 2).flush t = true ∧ i ∈ ((cfg0.win 2).blk t).view.set := by
  have hi : (i 0).val < 16384 := (i 0).isLt
  have hN : cfg0.N = 128 := N_0
  have ht : (i 0).val / 128 < cfg0.N := by rw [hN]; omega
  obtain ⟨-, -, -, -, -, -, e⟩ := idx_facts ⟨(i 0).val / 128, ht⟩
  refine ⟨⟨(i 0).val / 128, ht⟩, flush0_2 _, ?_⟩
  rw [mem_blk]
  intro a
  match a with
  | ⟨0, _⟩ =>
    show win0_2.index ⟨(i 0).val / 128, ht⟩ (0 : Fin 1) * 128 ≤ (i 0).val
      ∧ (i 0).val < win0_2.index ⟨(i 0).val / 128, ht⟩ (0 : Fin 1) * 128 + 128
    rw [e]
    show (i 0).val / 128 * 128 ≤ (i 0).val ∧ (i 0).val < (i 0).val / 128 * 128 + 128
    omega

/-- The result array after the run is `loss` of the two arguments. -/
theorem final (c : Dev nD) :
    (dats m 0 c).arrAt 2 cfg0.N
      = loss (m ((c : Thread nD τ).loc main_arg0)) (m ((c : Thread nD τ).loc main_arg1)) :=
  (dats m 0 c).arrAt_eq_of_cover 2 _ (fun t _ => flushed_eq m c t) covered

/-! ## The run, read -/

/-- Every weakly fair execution of the idealized kernel ends with the result array at `loss` of the two first
    arguments as launched, the arguments unchanged. -/
theorem run : θ_run defs (onTc (τ := τ) (main (F := Ideal))) ⟨m, fun _ => 0, ρ⟩ fun r => ∀ c : Dev nD,
      r.2.mem ((c : Thread nD τ).loc main_v2)
        = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayLoss

end
-- ==== Proof.ReferenceIsLoss.lean ====
/-
  The reference program computes `loss`.

  The reference reads each channel of a record out of the record-major arrays (a slice of the last axis, the unit axis
  dropped), forms the offset `(dx, dy)` on the two position channels together, and then works entry by entry on
  `[16384, 133]` matrices before summing each row. Read at `(n, k)` every matrix stage is the corresponding scalar of
  `nllTerm` / `labelTerm` at record `(n, k)`; the two row sums start from the word 0, the label sum is negated, and the
  total is multiplied by the word 1: `0 + s = s` and `s · 1 = s` hold for every extended real, so row `n` is `rowLoss`
  of the two rows. The visibility flag is compared "unordered or different" here and converted unsigned; on the
  extended reals that is the flag of `seen` read as 0 or 1.
-/
import proofs.«127953_j41815801593982_2_alg».proof.Proof.Gen.ReferenceIdeal.Read
import proofs.«127953_j41815801593982_2_alg».proof.Proof.NllSpec
import proofs.«127953_j41815801593982_2_alg».proof.Proof.LibChannelLayout
import Idealize.ShloMosaic.Lib.IdealHost

noncomputable section

namespace Cert.ReferenceIdeal.RefLoss

open Cert.ReferenceIdeal Cert.ReferenceIdeal.Gen Cert.ReferenceIdeal.Read
open Idealize.ShloMosaic Idealize.ShloMosaic.ValueIdx
open Cert.LibChannelLayout Cert.PoseNll
open scoped BigOperators

variable (x0 : (⟨S16384x133x6, .f32⟩ : BufTy).Contents (Elt Ideal)) (x1 : (⟨S16384x133x3, .f32⟩ : BufTy).Contents (Elt Ideal))
variable (p : Fin 16384) (q : Fin 133)

/-! ## The channels of a record, as the reference reads them -/

theorem covA_at : val_main_v2 (F := Ideal) x0 (ix2 p q) = x0 (ix3 p q 2) := by
  unfold val_main_v2 val_main_v1
  exact lastChannel_apply 2 (by decide) x0 _ _ p q

theorem covB_at : val_main_v4 (F := Ideal) x0 (ix2 p q) = x0 (ix3 p q 3) := by
  unfold val_main_v4 val_main_v3
  exact lastChannel_apply 3 (by decide) x0 _ _ p q

theorem covC_at : val_main_v6 (F := Ideal) x0 (ix2 p q) = x0 (ix3 p q 4) := by
  unfold val_main_v6 val_main_v5
  exact lastChannel_apply 4 (by decide) x0 _ _ p q

theorem lab_at : val_main_v8 (F := Ideal) x0 (ix2 p q) = x0 (ix3 p q 5) := by
  unfold val_main_v8 val_main_v7
  exact lastChannel_apply 5 (by decide) x0 _ _ p q

theorem vis_at : val_main_v11 (F := Ideal) x1 (ix2 p q) = x1 (ix3 p q 2) := by
  unfold val_main_v11 val_main_v10
  exact lastChannel_apply 2 (by decide) x1 _ _ p q

/-- The offset on the two position channels, formed together: channel `ch` of it is the target's minus the prediction's. -/
theorem offset_at (ch : Fin 2) :
    val_main_v21 (F := Ideal) x0 x1 (ix3 p q ch)
      = x1 (ix3 p q ⟨ch.val, by omega⟩) - x0 (ix3 p q ⟨ch.val, by omega⟩) := by
  show val_main_v9 (F := Ideal) x1 (ix3 p q ch) - val_main_v0 (F := Ideal) x0 (ix3 p q ch) = _
  unfold val_main_v9 val_main_v0
  rw [firstChannels_apply (by decide) x1 _ p q ch, firstChannels_apply (by decide) x0 _ p q ch]

theorem dx_at : val_main_v23 (F := Ideal) x0 x1 (ix2 p q) = x1 (ix3 p q 0) - x0 (ix3 p q 0) := by
  unfold val_main_v23 val_main_v22
  exact (lastChannel_apply 0 (by decide) (val_main_v21 (F := Ideal) x0 x1) _ _ p q).trans (offset_at x0 x1 p q 0)

theorem dy_at : val_main_v25 (F := Ideal) x0 x1 (ix2 p q) = x1 (ix3 p q 1) - x0 (ix3 p q 1) := by
  unfold val_main_v25 val_main_v24
  exact (lastChannel_apply 1 (by decide) (val_main_v21 (F := Ideal) x0 x1) _ _ p q).trans (offset_at x0 x1 p q 1)

/-! ## The splatted constants -/

theorem zero_at : val_main_v12 (F := Ideal) (ix2 p q) = Ideal.ofBits .f32 0x00000000#32 := by
  unfold val_main_v12 val_main_cst; exact broadcastInDim_scalar_apply _ _ _

theorem one_at : val_main_v15 (F := Ideal) (ix2 p q) = Ideal.ofBits .f32 0x3F800000#32 := by
  unfold val_main_v15 val_main_cst_0; exact broadcastInDim_scalar_apply _ _ _

theorem two_at : val_main_v31 (F := Ideal) (ix2 p q) = Ideal.ofBits .f32 0x40000000#32 := by
  unfold val_main_v31 val_main_cst_2; exact broadcastInDim_scalar_apply _ _ _

theorem half_at : val_main_v44 (F := Ideal) (ix2 p q) = Ideal.ofBits .f32 0x3F000000#32 := by
  unfold val_main_v44 val_main_cst_3; exact broadcastInDim_scalar_apply _ _ _

theorem log2pi_at : val_main_v46 (F := Ideal) (ix2 p q) = Ideal.ofBits .f32 0x3FEB3F8E#32 := by
  unfold val_main_v46 val_main_cst_4; exact broadcastInDim_scalar_apply _ _ _

theorem unit_at (i : S16384.Idx) : val_main_v50 (F := Ideal) i = Ideal.ofBits .f32 0x3F800000#32 := by
  unfold val_main_v50 val_main_cst_6; exact broadcastInDim_scalar_apply _ _ _

/-! ## One keypoint -/

/-- The summand of the reference's Gaussian sum at `(n, k)` is `nllTerm` of record `(n, k)`. -/
theorem nll_at :
    val_main_v47 (F := Ideal) x0 x1 (ix2 p q)
      = nllTerm (x0 (ix3 p q 0)) (x0 (ix3 p q 1)) (x0 (ix3 p q 2)) (x0 (ix3 p q 3)) (x0 (ix3 p q 4))
          (x1 (ix3 p q 0)) (x1 (ix3 p q 1)) (x1 (ix3 p q 2)) := by
  simp only [val_main_v47_apply, val_main_v45_apply, val_main_v43_apply, val_main_v42_apply, val_main_v13_apply,
    val_main_v41_apply, val_main_v40_apply, val_main_v39_apply, val_main_v38_apply, val_main_v35_apply, val_main_v30_apply,
    val_main_v29_apply, val_main_v34_apply, val_main_v33_apply, val_main_v32_apply, val_main_v37_apply, val_main_v36_apply,
    val_main_v28_apply, val_main_v26_apply, val_main_v27_apply,
    covA_at, covB_at, covC_at, vis_at, dx_at, dy_at, zero_at, two_at, half_at, log2pi_at]
  rfl

/-- The summand of the reference's label sum at `(n, k)` is `labelTerm` of record `(n, k)`. -/
theorem label_at :
    val_main_v18 (F := Ideal) x0 x1 (ix2 p q) = labelTerm (x0 (ix3 p q 5)) (x1 (ix3 p q 2)) := by
  simp only [val_main_v18_apply, val_main_v13_apply, val_main_v14_apply, val_main_v17_apply, val_main_v16_apply,
    lab_at, vis_at, zero_at, one_at]
  rfl

/-! ## One sample, and the whole result -/

/-- Row `n` of the reference's result is `rowLoss` of row `n` of the two arguments. -/
theorem row_at (n : Fin 16384) :
    val_main_v51 (F := Ideal) x0 x1 (ix1 n)
      = rowLoss (fun ch k => x0 (ix3 n k ch)) (fun ch k => x1 (ix3 n k ch)) := by
  have e48 : ∀ k : Fin 133, idx_main_v48 (ix1 n) k = ix2 n k := fun k =>
    funext fun a => Fin.ext (by match a with | ⟨0, _⟩ => rfl | ⟨1, _⟩ => rfl)
  have e19 : ∀ k : Fin 133, idx_main_v19 (ix1 n) k = ix2 n k := fun k =>
    funext fun a => Fin.ext (by match a with | ⟨0, _⟩ => rfl | ⟨1, _⟩ => rfl)
  rw [val_main_v51_apply, val_main_v49_apply, val_main_v20_apply, val_main_v48_apply, val_main_v19_apply, unit_at]
  simp only [e48, e19, nll_at, label_at]
  show ((Ideal.ofBits .f32 0x00000000#32 + ∑ k : Fin 133, _) + -(Ideal.ofBits .f32 0x00000000#32 + ∑ k : Fin 133, _))
      * Ideal.ofBits .f32 0x3F800000#32 = _
  rw [Ideal.ofBits_zero_f32, zero_add, zero_add, Ideal.ofBits_one_f32, mul_one]
  rfl

/-- The reference's result, as a function of its two first arguments, is `loss`. -/
theorem result_eq : val_main_v51 (F := Ideal) x0 x1 = loss x0 x1 := by
  funext i
  obtain ⟨n, rfl⟩ : ∃ n : Fin 16384, i = ix1 n := ⟨i 0, eq_ix1 i⟩
  exact row_at x0 x1 n

end Cert.ReferenceIdeal.RefLoss

end
-- ==== Proof.lean ====
/-
  A pose-estimation loss: per sample, the Gaussian negative log-likelihood of 133 keypoints under a predicted 2×2
  covariance, minus a Bernoulli log-likelihood of the keypoints' labels.

  The kernel lays the prediction `[16384, 133, 6]` and the target `[16384, 133, 3]` out channel-major and gives each of
  128 grid points 128 samples: per sample it sums, over the 133 keypoints, `[vis ≠ 0] · (log det + dᵀ Σ⁻¹ d) · ½ + log 2π`
  and, separately, `log lab` or `log (1 − lab)` by visibility, and stores the first sum plus (0 minus the second). The
  reference slices the channels out of the record-major arrays, computes the same two row sums from the word 0, negates
  the second, adds, and multiplies by the word 1.

  On the extended reals both are the one function `loss` of the two arrays (NllSpec.lean): entry by entry the two
  programs apply the same operations in the same order to the same records (a plane of a channel-major block and a
  channel slice of the record-major array read the same record: KernelArrayLoss.lean, ReferenceIsLoss.lean), a lane sum
  and a host row sum are the same finite sum, and the only laws used are `0 + s = s`, `0 − s = −s` and `s · 1 = s`,
  which hold for every extended real, so the precondition is never opened. The visibility flag's two conversions
  (widened and read signed; read unsigned) give the same number, and its two comparisons ("ordered and different",
  "unordered or different") are one function where nothing is unordered. The third argument is read by neither
  program.

  The three frames are the generated ones (the reference's is its generated run with the result dropped); the
  idealization rewrote nothing, so `preserves` is `True`.
-/
import proofs.«127953_j41815801593982_2_alg».proof.Defs
import proofs.«127953_j41815801593982_2_alg».proof.Proof.Gen.Kernel
import proofs.«127953_j41815801593982_2_alg».proof.Proof.Gen.Kernel.Skeleton
import proofs.«127953_j41815801593982_2_alg».proof.Proof.Gen.Kernel.Launch
import proofs.«127953_j41815801593982_2_alg».proof.Proof.Gen.Kernel.Points
import proofs.«127953_j41815801593982_2_alg».proof.Proof.Gen.Kernel.Frame
import proofs.«127953_j41815801593982_2_alg».proof.Proof.Gen.KernelIdeal
import proofs.«127953_j41815801593982_2_alg».proof.Proof.Gen.KernelIdeal.Skeleton
import proofs.«127953_j41815801593982_2_alg».proof.Proof.Gen.KernelIdeal.Launch
import proofs.«127953_j41815801593982_2_alg».proof.Proof.Gen.KernelIdeal.Points
import proofs.«127953_j41815801593982_2_alg».proof.Proof.Gen.KernelIdeal.Frame
import proofs.«127953_j41815801593982_2_alg».proof.Proof.Gen.ReferenceIdeal
import proofs.«127953_j41815801593982_2_alg».proof.Proof.Gen.Pre_finite_inputs
import proofs.«127953_j41815801593982_2_alg».proof.Proof.Gen.KernelIdeal.Value
import proofs.«127953_j41815801593982_2_alg».proof.Proof.Gen.ReferenceIdeal.Run
import proofs.«127953_j41815801593982_2_alg».proof.Proof.Gen.ReferenceIdeal.Read
import proofs.«127953_j41815801593982_2_alg».proof.Proof.KernelArrayLoss
import proofs.«127953_j41815801593982_2_alg».proof.Proof.ReferenceIsLoss
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the idealized kernel's result array ends at `loss` of its two first
    arguments (the blocks covering the array) and the idealized reference's at `loss` of its own (its run read stage
    by stage): equal, since the arguments agree. -/
theorem algebraic : Cert.algebraic_KernelIdeal_ReferenceIdeal := by
  intro m ρ m' ρ' _ hagree
  refine ⟨fun c => Cert.PoseNll.loss (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayLoss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefLoss.result_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
